-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x8192x128 : Shape := ⟨4, ![2, 16, 8192, 128]⟩
abbrev S16 : Shape := ⟨1, ![16]⟩
abbrev S_ : Shape := ⟨0, ![]⟩

class Facts : Prop where
  bcast_S_S2x16x8192x128 : S_.BroadcastsInDim S2x16x8192x128 (![] : Fin 0 → Fin S2x16x8192x128.rank)
  reducesTo_S2x16x8192x128_S_d0_1_2_3 : S2x16x8192x128.ReducesTo [0, 1, 2, 3] S_
  h_S_ : 0 < S_.numel
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S2x16x8192x128 .f32) (main_arg1 : FVec F S2x16x8192x128 .f32) (main_arg2 : FVec F S2x16x8192x128 .f32) (main_arg3 : FVec F S16 .f32) : IVec S_ 1 :=
  let main_v0 : FVec F S2x16x8192x128 .f32 := Host.absf main_arg0
  let main_cst : FVec F S_ .f32 := constant S_ .f32 0x7F800000#32
  let main_v1 : FVec F S2x16x8192x128 .f32 := broadcastInDim S2x16x8192x128 ![] bcast_S_S2x16x8192x128 main_cst
  let main_v2 : IVec S2x16x8192x128 1 := cmpf .olt main_v0 main_v1
  let main_c : IVec S_ 1 := constantI S_ 1 1#1
  let main_v3 : IVec S_ 1 := (fun x v => Host.reduce IntOp.andi x v reducesTo_S2x16x8192x128_S_d0_1_2_3 h_S_) main_v2 main_c
  let main_v4 : FVec F S2x16x8192x128 .f32 := Host.absf main_arg1
  let main_cst_0 : FVec F S_ .f32 := constant S_ .f32 0x7F800000#32
  let main_v5 : FVec F S2x16x8192x128 .f32 := broadcastInDim S2x16x8192x128 ![] bcast_S_S2x16x8192x128 main_cst_0
  let main_v6 : IVec S2x16x8192x128 1 := cmpf .olt main_v4 main_v5
  let main_c_1 : IVec S_ 1 := constantI S_ 1 1#1
  let main_v7 : IVec S_ 1 := (fun x v => Host.reduce IntOp.andi x v reducesTo_S2x16x8192x128_S_d0_1_2_3 h_S_) main_v6 main_c_1
  let main_v8 : IVec S_ 1 := andi main_v3 main_v7
  let main_v9 : FVec F S2x16x8192x128 .f32 := Host.absf main_arg2
  let main_cst_2 : FVec F S_ .f32 := constant S_ .f32 0x7F800000#32
  let main_v10 : FVec F S2x16x8192x128 .f32 := broadcastInDim S2x16x8192x128 ![] bcast_S_S2x16x8192x128 main_cst_2
  let main_v11 : IVec S2x16x8192x128 1 := cmpf .olt main_v9 main_v10
  let main_c_3 : IVec S_ 1 := constantI S_ 1 1#1
  let main_v12 : IVec S_ 1 := (fun x v => Host.reduce IntOp.andi x v reducesTo_S2x16x8192x128_S_d0_1_2_3 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S2x16x8192x128 : Shape := ⟨4, ![2, 16, 8192, 128]⟩
abbrev S16 : Shape := ⟨1, ![16]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S16x1x1 : Shape := ⟨3, ![16, 1, 1]⟩
abbrev S16x64x64 : Shape := ⟨3, ![16, 64, 64]⟩
abbrev S_ : Shape := ⟨0, ![]⟩
abbrev S2x16x128x64x128 : Shape := ⟨5, ![2, 16, 128, 64, 128]⟩
abbrev S1x1x128x64x128 : Shape := ⟨5, ![1, 1, 128, 64, 128]⟩
abbrev S1x1x32x64x128 : Shape := ⟨5, ![1, 1, 32, 64, 128]⟩
abbrev S32x64x128 : Shape := ⟨3, ![32, 64, 128]⟩
abbrev S32x64x64 : Shape := ⟨3, ![32, 64, 64]⟩

abbrev nBuf : Space → Nat
  | .hbm => 34
  | .vmem => 10
  | .smem => 0
  | _ => 0

abbrev bufTy : (tb : Table) → Fin (tcTables nBuf tb) → BufTy
  | .hbm, ⟨0, _⟩ => ⟨S2x16x8192x128, .f32⟩
  | .hbm, ⟨1, _⟩ => ⟨S2x16x8192x128, .f32⟩
  | .hbm, ⟨2, _⟩ => ⟨S2x16x8192x128, .f32⟩
  | .hbm, ⟨3, _⟩ => ⟨S16, .f32⟩
  | .hbm, ⟨4, _⟩ => ⟨S64, .i32⟩
  | .hbm, ⟨5, _⟩ => ⟨S64x1, .i32⟩
  | .hbm, ⟨6, _⟩ => ⟨S1x64, .i32⟩
  | .hbm, ⟨7, _⟩ => ⟨S64x64, .i32⟩
  | .hbm, ⟨8, _⟩ => ⟨S64x64, .i32⟩
  | .hbm, ⟨9, _⟩ => ⟨S64x64, .i32⟩
  | .hbm, ⟨10, _⟩ => ⟨S64x64, .f32⟩
  | .hbm, ⟨11, _⟩ => ⟨S64x1, .i32⟩
  | .hbm, ⟨12, _⟩ => ⟨S1x64, .i32⟩
  | .hbm, ⟨13, _⟩ => ⟨S64x64, .i32⟩
  | .hbm, ⟨14, _⟩ => ⟨S64x64, .i32⟩
  | .hbm, ⟨15, _⟩ => ⟨S64x64, .i1⟩
  | .hbm, ⟨16, _⟩ => ⟨S1x64x64, .i1⟩
  | .hbm, ⟨17, _⟩ => ⟨S16x1x1, .f32⟩
  | .hbm, ⟨18, _⟩ => ⟨S16x1x1, .f32⟩
  | .hbm, ⟨19, _⟩ => ⟨S1x64x64, .f32⟩
  | .hbm, ⟨20, _⟩ => ⟨S16x64x64, .f32⟩
  | .hbm, ⟨21, _⟩ => ⟨S16x64x64, .f32⟩
  | .hbm, ⟨22, _⟩ => ⟨S16x64x64, .f32⟩
  | .hbm, ⟨23, _⟩ => ⟨S_, .f32⟩
  | .hbm, ⟨24, _⟩ => ⟨S_, .f32⟩
  | .hbm, ⟨25, _⟩ => ⟨S16x64x64, .i1⟩
  | .hbm, ⟨26, _⟩ => ⟨S16x64x64, .f32⟩
  | .hbm, ⟨27, _⟩ => ⟨S16x64x64, .f32⟩
  | .hbm, ⟨28, _⟩ => ⟨S16x64x64, .f32⟩
  | .hbm, ⟨29, _⟩ => ⟨S2x16x128x64x128, .f32⟩
  | .hbm, ⟨30, _⟩ => ⟨S2x16x128x64x128, .f32⟩
  | .hbm, ⟨31, _⟩ => ⟨S2x16x128x64x128, .f32⟩
  | .hbm, ⟨32, _⟩ => ⟨S2x16x128x64x128, .f32⟩
  | .hbm, ⟨33, _⟩ => ⟨S2x16x8192x128, .f32⟩
  | .local _ .vmem, ⟨0, _⟩ => ⟨S1x1x128x64x128, .f32⟩
  | .local _ .vmem, ⟨1, _⟩ => ⟨S1x1x128x64x128, .f32⟩
  | .local _ .vmem, ⟨2, _⟩ => ⟨S1x1x128x64x128, .f32⟩
  | .local _ .vmem, ⟨3, _⟩ => ⟨S1x1x128x64x128, .f32⟩
  | .local _ .vmem, ⟨4, _⟩ => ⟨S1x1x128x64x128, .f32⟩
  | .local _ .vmem, ⟨5, _⟩ => ⟨S1x1x128x64x128, .f32⟩
  | .local _ .vmem, ⟨6, _⟩ => ⟨S1x64x64, .f32⟩
  | .local _ .vmem, ⟨7, _⟩ => ⟨S1x64x64, .f32⟩
  | .local _ .vmem, ⟨8, _⟩ => ⟨S1x1x128x64x128, .f32⟩
  | .local _ .vmem, ⟨9, _⟩ => ⟨S1x1x128x64x128, .f32⟩
  | _, _ => ⟨S2x16x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 1], ![false, false, false]⟩

def k0_mult1 : BitVec 32 :=
  let c0_i32 : BitVec 32 := 0#32
  let c32_i32 : BitVec 32 := 32#32
  let v2 : BitVec 32 := Scalar.muli c0_i32 c32_i32
  v2
def k0_off1 (c0_i32 : BitVec 32) : Fin 5 → Nat :=
  let c0_2 : Index := 0#32
  let c0_3 : Index := 0#32
  let c32_i32 : BitVec 32 := 32#32
  let v2 : BitVec 32 := Scalar.muli c0_i32 c32_i32
  let v3 : BitVec 32 := v2
  let v4 : Index := Scalar.indexCast v3
  let c0_4 : Index := 0#32
  let c0_5 : Index := 0#32
  ![0, 0, v4.toNat, 0, 0]
def k0_mult2 : BitVec 32 :=
  let c1_i32 : BitVec 32 := 1#32
  let c32_i32_19 : BitVec 32 := 32#32
  let v26 : BitVec 32 := Scalar.muli c1_i32 c32_i32_19
  v26
def k0_mult3 : BitVec 32 :=
  let c2_i32 : BitVec 32 := 2#32
  let c32_i32_38 : BitVec 32 := 32#32
  let v50 : BitVec 32 := Scalar.muli c2_i32 c32_i32_38
  v50
def k0_mult4 : BitVec 32 :=
  let c3_i32 : BitVec 32 := 3#32
  let c32_i32_57 : BitVec 32 := 32#32
  let v74 : BitVec 32 := Scalar.muli c3_i32 c32_i32_57
  v74
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x128x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S64x64_S1x64x64_1_2 : S64x64.BroadcastsInDim S1x64x64 (![1, 2] : Fin 2 → Fin S1x64x64.rank)
  bcast_S16_S16x1x1_0 : S16.BroadcastsInDim S16x1x1 (![0] : Fin 1 → Fin S16x1x1.rank)
  bcast_S16x1x1_S16x64x64_0_1_2 : S16x1x1.BroadcastsInDim S16x64x64 (![0, 1, 2] : Fin 3 → Fin S16x64x64.rank)
  bcast_S1x64x64_S16x64x64_0_1_2 : S1x64x64.BroadcastsInDim S16x64x64 (![0, 1, 2] : Fin 3 → Fin S16x64x64.rank)
  bcast_S_S16x64x64 : S_.BroadcastsInDim S16x64x64 (![] : Fin 0 → Fin S16x64x64.rank)
  shapeCasts_S2x16x8192x128_S2x16x128x64x128 : S2x16x8192x128.ShapeCasts S2x16x128x64x128
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  h_S1x1x32x64x128 : 0 < S1x1x32x64x128.numel
  shapeCasts_S1x1x32x64x128_S32x64x128 : S1x1x32x64x128.ShapeCasts S32x64x128
  bitsLt_bf16_f32 : FTy.bits .bf16 < FTy.bits .f32
  shapeCasts_S64x64_S1x64x64 : S64x64.ShapeCasts S1x64x64
  broadcasts_S1x64x64_S32x64x64 : S1x64x64.Broadcasts S32x64x64
  shapeCasts_S32x64x128_S1x1x32x64x128 : S32x64x128.ShapeCasts S1x1x32x64x128
  shapeCasts_S2x16x128x64x128_S2x16x8192x128 : S2x16x128x64x128.ShapeCasts S2x16x8192x128
  dot_S32x64x128_S32x64x128_S32x64x64_2_2_1_1_0_0_wf : DotDims.WF S32x64x128 S32x64x128 S32x64x64 [2] [2] [1] [1] [0] [0]
  dot_S32x64x64_S32x64x128_S32x64x128_2_1_1_2_0_0_wf : DotDims.WF S32x64x64 S32x64x128 S32x64x128 [2] [1] [1] [2] [0] [0]
  hrank0 : 0 < grid0.rank
  k0_mult1_dvd : 32 ∣ k0_mult1.toNat
  k0_off1_inb : ∀ (r : Fin 4), ∀ a, (k0_off1 (BitVec.ofNat 32 r.val)) a + S1x1x32x64x128.size a ≤ S1x1x128x64x128.size a
  k0_mult2_dvd : 32 ∣ k0_mult2.toNat
  k0_mult3_dvd : 32 ∣ k0_mult3.toNat
  k0_mult4_dvd : 32 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128x64x128.size a ≤ S2x16x128x64x128.size a
  hwx0_0 : ∀ i : grid0.Coords, EltTy.bits .f32 = 32 ∨ (Rect.block (s := S2x16x128x64x128) S1x1x128x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x64x128.size a ≤ S2x16x128x64x128.size a
  hwx0_1 : ∀ i : grid0.Coords, EltTy.bits .f32 = 32 ∨ (Rect.block (s := S2x16x128x64x128) S1x1x128x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128x64x128.size a ≤ S2x16x128x64x128.size a
  hwx0_2 : ∀ i : grid0.Coords, EltTy.bits .f32 = 32 ∨ (Rect.block (s := S2x16x128x64x128) S1x1x128x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S16x64x64.size a
  hwx0_3 : ∀ i : grid0.Coords, EltTy.bits .f32 = 32 ∨ (Rect.block (s := S16x64x64) S1x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128x64x128.size a ≤ S2x16x128x64x128.size a
  hwx0_4 : ∀ i : grid0.Coords, EltTy.bits .f32 = 32 ∨ (Rect.block (s := S2x16x128x64x128) S1x1x128x64x128.size (cc0_transform_4 i) (hinb0_4 i)).WholeWords (EltTy.packing .f32)

variable [Facts₀]

def dot_S32x64x128_S32x64x128_S32x64x64_2_2_1_1_0_0 : DotDims S32x64x128 S32x64x128 S32x64x64 where
  lhsContracting := [2]
  rhsContracting := [2]
  lhsNonContracting := [1]
  rhsNonContracting := [1]
  lhsBatch := [0]
  rhsBatch := [0]
  wf := dot_S32x64x128_S32x64x128_S32x64x64_2_2_1_1_0_0_wf
def dot_S32x64x64_S32x64x128_S32x64x128_2_1_1_2_0_0 : DotDims S32x64x64 S32x64x128 S32x64x128 where
  lhsContracting := [2]
  rhsContracting := [1]
  lhsNonContracting := [1]
  rhsNonContracting := [2]
  lhsBatch := [0]
  rhsBatch := [0]
  wf := dot_S32x64x64_S32x64x128_S32x64x128_2_1_1_2_0_0_wf

abbrev win0_0 : Pipeline.Window sig grid0 :=
  Pipeline.Window.ofSpec (Memref.whole main_v21) S1x1x128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x1x128x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x1x128x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x1x128x64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x8192x128 : Shape := ⟨4, ![2, 16, 8192, 128]⟩
abbrev S16 : Shape := ⟨1, ![16]⟩
abbrev S2x16x128x64x128 : Shape := ⟨5, ![2, 16, 128, 64, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S16x1x1 : Shape := ⟨3, ![16, 1, 1]⟩
abbrev S16x64x64 : Shape := ⟨3, ![16, 64, 64]⟩
abbrev S_ : Shape := ⟨0, ![]⟩
abbrev S2x16x128x64x64 : Shape := ⟨5, ![2, 16, 128, 64, 64]⟩
abbrev S1x16x1x64x64 : Shape := ⟨5, ![1, 16, 1, 64, 64]⟩

abbrev nBuf : Space → Nat
  | .hbm => 38
  | .vmem => 0
  | .smem => 0
  | _ => 0

abbrev bufTy : (tb : Table) → Fin (tcTables nBuf tb) → BufTy
  | .hbm, ⟨0, _⟩ => ⟨S2x16x8192x128, .f32⟩
  | .hbm, ⟨1, _⟩ => ⟨S2x16x8192x128, .f32⟩
  | .hbm, ⟨2, _⟩ => ⟨S2x16x8192x128, .f32⟩
  | .hbm, ⟨3, _⟩ => ⟨S16, .f32⟩
  | .hbm, ⟨4, _⟩ => ⟨S2x16x128x64x128, .f32⟩
  | .hbm, ⟨5, _⟩ => ⟨S2x16x128x64x128, .f32⟩
  | .hbm, ⟨6, _⟩ => ⟨S2x16x128x64x128, .f32⟩
  | .hbm, ⟨7, _⟩ => ⟨S64, .i32⟩
  | .hbm, ⟨8, _⟩ => ⟨S64x1, .i32⟩
  | .hbm, ⟨9, _⟩ => ⟨S1x64, .i32⟩
  | .hbm, ⟨10, _⟩ => ⟨S64x64, .i32⟩
  | .hbm, ⟨11, _⟩ => ⟨S64x64, .i32⟩
  | .hbm, ⟨12, _⟩ => ⟨S64x64, .i32⟩
  | .hbm, ⟨13, _⟩ => ⟨S64x64, .f32⟩
  | .hbm, ⟨14, _⟩ => ⟨S64x1, .i32⟩
  | .hbm, ⟨15, _⟩ => ⟨S1x64, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S1x64x64, .i1⟩
  | .hbm, ⟨20, _⟩ => ⟨S16x1x1, .f32⟩
  | .hbm, ⟨21, _⟩ => ⟨S16x1x1, .f32⟩
  | .hbm, ⟨22, _⟩ => ⟨S1x64x64, .f32⟩
  | .hbm, ⟨23, _⟩ => ⟨S16x64x64, .f32⟩
  | .hbm, ⟨24, _⟩ => ⟨S16x64x64, .f32⟩
  | .hbm, ⟨25, _⟩ => ⟨S16x64x64, .f32⟩
  | .hbm, ⟨26, _⟩ => ⟨S_, .f32⟩
  | .hbm, ⟨27, _⟩ => ⟨S_, .f32⟩
  | .hbm, ⟨28, _⟩ => ⟨S16x64x64, .i1⟩
  | .hbm, ⟨29, _⟩ => ⟨S16x64x64, .f32⟩
  | .hbm, ⟨30, _⟩ => ⟨S16x64x64, .f32⟩
  | .hbm, ⟨31, _⟩ => ⟨S16x64x64, .f32⟩
  | .hbm, ⟨32, _⟩ => ⟨S2x16x128x64x64, .f32⟩
  | .hbm, ⟨33, _⟩ => ⟨S1x16x1x64x64, .f32⟩
  | .hbm, ⟨34, _⟩ => ⟨S2x16x128x64x64, .f32⟩
  | .hbm, ⟨35, _⟩ => ⟨S2x16x128x64x64, .f32⟩
  | .hbm, ⟨36, _⟩ => ⟨S2x16x128x64x128, .f32⟩
  | .hbm, ⟨37, _⟩ => ⟨S2x16x8192x128, .f32⟩
  | _, _ => ⟨S2x16x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S2x16x8192x128_S2x16x128x64x128 : S2x16x8192x128.ShapeCasts S2x16x128x64x128
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S64x64_S1x64x64_1_2 : S64x64.BroadcastsInDim S1x64x64 (![1, 2] : Fin 2 → Fin S1x64x64.rank)
  bcast_S16_S16x1x1_0 : S16.BroadcastsInDim S16x1x1 (![0] : Fin 1 → Fin S16x1x1.rank)
  bcast_S16x1x1_S16x64x64_0_1_2 : S16x1x1.BroadcastsInDim S16x64x64 (![0, 1, 2] : Fin 3 → Fin S16x64x64.rank)
  bcast_S1x64x64_S16x64x64_0_1_2 : S1x64x64.BroadcastsInDim S16x64x64 (![0, 1, 2] : Fin 3 → Fin S16x64x64.rank)
  bcast_S_S16x64x64 : S_.BroadcastsInDim S16x64x64 (![] : Fin 0 → Fin S16x64x64.rank)
  bcast_S16x64x64_S1x16x1x64x64_1_3_4 : S16x64x64.BroadcastsInDim S1x16x1x64x64 (![1, 3, 4] : Fin 3 → Fin S1x16x1x64x64.rank)
  bcast_S1x16x1x64x64_S2x16x128x64x64_0_1_2_3_4 : S1x16x1x64x64.BroadcastsInDim S2x16x128x64x64 (![0, 1, 2, 3, 4] : Fin 5 → Fin S2x16x128x64x64.rank)
  shapeCasts_S2x16x128x64x128_S2x16x8192x128 : S2x16x128x64x128.ShapeCasts S2x16x8192x128
  dot_S2x16x128x64x128_S2x16x128x64x128_S2x16x128x64x64_4_4_3_3_012_012_wf : DotDims.WF S2x16x128x64x128 S2x16x128x64x128 S2x16x128x64x64 [4] [4] [3] [3] [0, 1, 2] [0, 1, 2]
  dot_S2x16x128x64x64_S2x16x128x64x128_S2x16x128x64x128_4_3_3_4_012_012_wf : DotDims.WF S2x16x128x64x64 S2x16x128x64x128 S2x16x128x64x128 [4] [3] [3] [4] [0, 1, 2] [0, 1, 2]

variable [Facts₀]

def dot_S2x16x128x64x128_S2x16x128x64x128_S2x16x128x64x64_4_4_3_3_012_012 : DotDims S2x16x128x64x128 S2x16x128x64x128 S2x16x128x64x64 where
  lhsContracting := [4]
  rhsContracting := [4]
  lhsNonContracting := [3]
  rhsNonContracting := [3]
  lhsBatch := [0, 1, 2]
  rhsBatch := [0, 1, 2]
  wf := dot_S2x16x128x64x128_S2x16x128x64x128_S2x16x128x64x64_4_4_3_3_012_012_wf
def dot_S2x16x128x64x64_S2x16x128x64x128_S2x16x128x64x128_4_3_3_4_012_012 : DotDims S2x16x128x64x64 S2x16x128x64x128 S2x16x128x64x128 where
  lhsContracting := [4]
  rhsContracting := [3]
  lhsNonContracting := [3]
  rhsNonContracting := [4]
  lhsBatch := [0, 1, 2]
  rhsBatch := [0, 1, 2]
  wf := dot_S2x16x128x64x64_S2x16x128x64x128_S2x16x128x64x128_4_3_3_4_012_012_wf

class Facts : Prop extends Facts₀ where

variable [Facts]
-- ==== Proof.Chunk.lean ====
/-
  One sub-chunk of the kernel body, read at an index.

  The body handles 32 consecutive blocks at a time.  From the loaded slabs `a`, `b`, `cc` of the query, key and value
  blocks (each [1, 1, 32, 64, 128]) and the head's table `w` ([1, 64, 64]) it forms, block by block, the 64 × 64 matrix of
  inner products (a batched contraction over the feature axis), multiplies it entrywise by the table, and contracts the
  result with the value slab over the key-row axis.  Over the extended reals a change of float format is the identity and a
  matrix product into the zero accumulator is the plain sum, so at (g, t, e) the stored value is

      ∑ s, ((∑ d, a(g,t,d) · b(g,s,d)) · w(t,s)) · cc(g,s,e).
-/
import proofs.«108467_j70471823392988_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Chunk

open Cert.KernelIdeal Cert.KernelIdeal.Gen Idealize.ShloMosaic Idealize.ShloMosaic.ValueIdx
open scoped BigOperators

/-- A [1, 1, 32, 64, 128] slab viewed [32, 64, 128]: same entries, the two unit axes dropped. -/
theorem slab_drop {α : Type} (x : S1x1x32x64x128.Idx → α) (h : S1x1x32x64x128.ShapeCasts S32x64x128)
    (g : Fin 32) (t : Fin 64) (d : Fin 128) :
    shapeCast S32x64x128 x h (ix3 g t d) = x (ix5 (0 : Fin 1) (0 : Fin 1) g t d) := by
  refine shapeCast_apply x h (ix3 g t d) (ix5 (0 : Fin 1) (0 : Fin 1) g t d) ?_
  rw [Shape.rowMajor_val_three, Shape.rowMajor_val_five]
  show (((0 * 1 + 0) * 32 + g.val) * 64 + t.val) * 128 + d.val = (g.val * 64 + t.val) * 128 + d.val
  omega

/-- A [32, 64, 128] result viewed [1, 1, 32, 64, 128]: same entries, two unit axes in front. -/
theorem slab_add {α : Type} (x : S32x64x128.Idx → α) (h : S32x64x128.ShapeCasts S1x1x32x64x128)
    (u v : Fin 1) (g : Fin 32) (t : Fin 64) (d : Fin 128) :
    shapeCast S1x1x32x64x128 x h (ix5 u v g t d) = x (ix3 g t d) := by
  refine shapeCast_apply x h (ix5 u v g t d) (ix3 g t d) ?_
  rw [Shape.rowMajor_val_three, Shape.rowMajor_val_five]
  show (g.val * 64 + t.val) * 128 + d.val = (((u.val * 1 + v.val) * 32 + g.val) * 64 + t.val) * 128 + d.val
  have hu := u.isLt; have hv := v.isLt
  omega

/-- The table [1, 64, 64], viewed [64, 64] and back, then repeated along a new leading axis of 32 blocks. -/
theorem table_stretch {α : Type} (w : S1x64x64.Idx → α) (h1 : S1x64x64.ShapeCasts S64x64) (h2 : S64x64.ShapeCasts S1x64x64)
    (h3 : S1x64x64.Broadcasts S32x64x64) (g : Fin 32) (t s : Fin 64) :
    broadcastTo S32x64x64 (shapeCast S1x64x64 (shapeCast S64x64 w h1) h2) h3 (ix3 g t s) = w (ix3 (0 : Fin 1) t s) := by
  rw [shapeCast_shapeCast]
  refine broadcastTo_apply w h3 (ix3 g t s) (ix3 (0 : Fin 1) t s) fun a => ?_
  match a with
  | ⟨0, _⟩ => show (0 : Nat) = if (1 : Nat) = 1 then 0 else _; rw [if_pos rfl]
  | ⟨1, _⟩ => show t.val = if (64 : Nat) = 1 then 0 else t.val; rw [if_neg (by decide)]
  | ⟨2, _⟩ => show s.val = if (64 : Nat) = 1 then 0 else s.val; rw [if_neg (by decide)]

/-! The operand indices of the two contractions, coordinate by coordinate: the block axis is carried along, the kept
    axis comes from the result index, the contracted one from the summation index. -/
theorem sc_lhs_0 (i : S32x64x64.Idx) (q : dot_S32x64x128_S32x64x128_S32x64x64_2_2_1_1_0_0.contr.Idx) :
    (dot_S32x64x128_S32x64x128_S32x64x64_2_2_1_1_0_0.lhsIdx i q 0).val = (i 0).val := by
  unfold DotDims.lhsIdx
  rw [dif_pos (show (0 : Fin S32x64x128.rank) ∈ dot_S32x64x128_S32x64x128_S32x64x64_2_2_1_1_0_0.lhsBatch by decide)]
  rfl
theorem sc_lhs_1 (i : S32x64x64.Idx) (q : dot_S32x64x128_S32x64x128_S32x64x64_2_2_1_1_0_0.contr.Idx) :
    (dot_S32x64x128_S32x64x128_S32x64x64_2_2_1_1_0_0.lhsIdx i q 1).val = (i 1).val := by
  unfold DotDims.lhsIdx
  rw [dif_neg (show ¬(1 : Fin S32x64x128.rank) ∈ dot_S32x64x128_S32x64x128_S32x64x64_2_2_1_1_0_0.lhsBatch by decide), dif_pos (show (1 : Fin S32x64x128.rank) ∈ dot_S32x64x128_S32x64x128_S32x64x64_2_2_1_1_0_0.lhsNonContracting by decide)]
  rfl
theorem sc_lhs_2 (i : S32x64x64.Idx) (q : dot_S32x64x128_S32x64x128_S32x64x64_2_2_1_1_0_0.contr.Idx) :
    (dot_S32x64x128_S32x64x128_S32x64x64_2_2_1_1_0_0.lhsIdx i q 2).val = (q ⟨0, by decide⟩).val :=
  dot_S32x64x128_S32x64x128_S32x64x64_2_2_1_1_0_0.lhsIdx_val_of_single rfl i q
theorem sc_rhs_0 (i : S32x64x64.Idx) (q : dot_S32x64x128_S32x64x128_S32x64x64_2_2_1_1_0_0.contr.Idx) :
    (dot_S32x64x128_S32x64x128_S32x64x64_2_2_1_1_0_0.rhsIdx i q 0).val = (i 0).val := by
  unfold DotDims.rhsIdx
  rw [dif_pos (show (0 : Fin S32x64x128.rank) ∈ dot_S32x64x128_S32x64x128_S32x64x64_2_2_1_1_0_0.rhsBatch by decide)]
  rfl
theorem sc_rhs_1 (i : S32x64x64.Idx) (q : dot_S32x64x128_S32x64x128_S32x64x64_2_2_1_1_0_0.contr.Idx) :
    (dot_S32x64x128_S32x64x128_S32x64x64_2_2_1_1_0_0.rhsIdx i q 1).val = (i 2).val := by
  unfold DotDims.rhsIdx
  rw [dif_neg (show ¬(1 : Fin S32x64x128.rank) ∈ dot_S32x64x128_S32x64x128_S32x64x64_2_2_1_1_0_0.rhsBatch by decide), dif_pos (show (1 : Fin S32x64x128.rank) ∈ dot_S32x64x128_S32x64x128_S32x64x64_2_2_1_1_0_0.rhsNonContracting by decide)]
  rfl
theorem sc_rhs_2 (i : S32x64x64.Idx) (q : dot_S32x64x128_S32x64x128_S32x64x64_2_2_1_1_0_0.contr.Idx) :
    (dot_S32x64x128_S32x64x128_S32x64x64_2_2_1_1_0_0.rhsIdx i q 2).val = (q ⟨0, by decide⟩).val :=
  dot_S32x64x128_S32x64x128_S32x64x64_2_2_1_1_0_0.rhsIdx_val_of_single rfl i q
theorem mx_lhs_0 (i : S32x64x128.Idx) (q : dot_S32x64x64_S32x64x128_S32x64x128_2_1_1_2_0_0.contr.Idx) :
    (dot_S32x64x64_S32x64x128_S32x64x128_2_1_1_2_0_0.lhsIdx i q 0).val = (i 0).val := by
  unfold DotDims.lhsIdx
  rw [dif_pos (show (0 : Fin S32x64x64.rank) ∈ dot_S32x64x64_S32x64x128_S32x64x128_2_1_1_2_0_0.lhsBatch by decide)]
  rfl
theorem mx_lhs_1 (i : S32x64x128.Idx) (q : dot_S32x64x64_S32x64x128_S32x64x128_2_1_1_2_0_0.contr.Idx) :
    (dot_S32x64x64_S32x64x128_S32x64x128_2_1_1_2_0_0.lhsIdx i q 1).val = (i 1).val := by
  unfold DotDims.lhsIdx
  rw [dif_neg (show ¬(1 : Fin S32x64x64.rank) ∈ dot_S32x64x64_S32x64x128_S32x64x128_2_1_1_2_0_0.lhsBatch by decide), dif_pos (show (1 : Fin S32x64x64.rank) ∈ dot_S32x64x64_S32x64x128_S32x64x128_2_1_1_2_0_0.lhsNonContracting by decide)]
  rfl
theorem mx_lhs_2 (i : S32x64x128.Idx) (q : dot_S32x64x64_S32x64x128_S32x64x128_2_1_1_2_0_0.contr.Idx) :
    (dot_S32x64x64_S32x64x128_S32x64x128_2_1_1_2_0_0.lhsIdx i q 2).val = (q ⟨0, by decide⟩).val :=
  dot_S32x64x64_S32x64x128_S32x64x128_2_1_1_2_0_0.lhsIdx_val_of_single rfl i q
theorem mx_rhs_0 (i : S32x64x128.Idx) (q : dot_S32x64x64_S32x64x128_S32x64x128_2_1_1_2_0_0.contr.Idx) :
    (dot_S32x64x64_S32x64x128_S32x64x128_2_1_1_2_0_0.rhsIdx i q 0).val = (i 0).val := by
  unfold DotDims.rhsIdx
  rw [dif_pos (show (0 : Fin S32x64x128.rank) ∈ dot_S32x64x64_S32x64x128_S32x64x128_2_1_1_2_0_0.rhsBatch by decide)]
  rfl
theorem mx_rhs_1 (i : S32x64x128.Idx) (q : dot_S32x64x64_S32x64x128_S32x64x128_2_1_1_2_0_0.contr.Idx) :
    (dot_S32x64x64_S32x64x128_S32x64x128_2_1_1_2_0_0.rhsIdx i q 1).val = (q ⟨0, by decide⟩).val :=
  dot_S32x64x64_S32x64x128_S32x64x128_2_1_1_2_0_0.rhsIdx_val_of_single rfl i q
theorem mx_rhs_2 (i : S32x64x128.Idx) (q : dot_S32x64x64_S32x64x128_S32x64x128_2_1_1_2_0_0.contr.Idx) :
    (dot_S32x64x64_S32x64x128_S32x64x128_2_1_1_2_0_0.rhsIdx i q 2).val = (i 2).val := by
  unfold DotDims.rhsIdx
  rw [dif_neg (show ¬(2 : Fin S32x64x128.rank) ∈ dot_S32x64x64_S32x64x128_S32x64x128_2_1_1_2_0_0.rhsBatch by decide), dif_pos (show (2 : Fin S32x64x128.rank) ∈ dot_S32x64x64_S32x64x128_S32x64x128_2_1_1_2_0_0.rhsNonContracting by decide)]
  rfl

/-- The first contraction of a sub-chunk, into the zero accumulator: per block `g`, the inner product over the feature
    axis of row `t` of the left operand and row `s` of the right one. -/
theorem scores_apply (L R : FVec Ideal S32x64x128 .bf16) (g : Fin 32) (t s : Fin 64) :
    matmul dot_S32x64x128_S32x64x128_S32x64x64_2_2_1_1_0_0 none L R (constant (F := Ideal) S32x64x64 .f32 0x00000000#32) (ix3 g t s)
      = ∑ d : Fin 128, L (ix3 g t d) * R (ix3 g s d) := by
  simp only [matmul]
  rw [Ideal.matmul_constant_zero_apply, ← Equiv.sum_comp (contrEquiv1 dot_S32x64x128_S32x64x128_S32x64x64_2_2_1_1_0_0 128 rfl rfl).symm]
  refine Finset.sum_congr rfl fun d _ => ?_
  have hk := contrEquiv1_symm_val dot_S32x64x128_S32x64x128_S32x64x64_2_2_1_1_0_0 128 rfl rfl d
  have el : dot_S32x64x128_S32x64x128_S32x64x64_2_2_1_1_0_0.lhsIdx (ix3 g t s) ((contrEquiv1 dot_S32x64x128_S32x64x128_S32x64x64_2_2_1_1_0_0 128 rfl rfl).symm d) = ix3 g t d :=
    funext fun a => Fin.ext (by
      match a with
      | ⟨0, _⟩ => exact sc_lhs_0 _ _
      | ⟨1, _⟩ => exact sc_lhs_1 _ _
      | ⟨2, _⟩ => exact (sc_lhs_2 _ _).trans hk)
  have er : dot_S32x64x128_S32x64x128_S32x64x64_2_2_1_1_0_0.rhsIdx (ix3 g t s) ((contrEquiv1 dot_S32x64x128_S32x64x128_S32x64x64_2_2_1_1_0_0 128 rfl rfl).symm d) = ix3 g s d :=
    funext fun a => Fin.ext (by
      match a with
      | ⟨0, _⟩ => exact sc_rhs_0 _ _
      | ⟨1, _⟩ => exact sc_rhs_1 _ _
      | ⟨2, _⟩ => exact (sc_rhs_2 _ _).trans hk)
  rw [el, er]

/-- The second contraction, into the zero accumulator: per block `g`, row `t` of the weighted scores against column
    `e` of the value block, summed over the key row `s`. -/
theorem mix_apply (L : FVec Ideal S32x64x64 .bf16) (R : FVec Ideal S32x64x128 .bf16) (g : Fin 32) (t : Fin 64) (e : Fin 128) :
    matmul dot_S32x64x64_S32x64x128_S32x64x128_2_1_1_2_0_0 none L R (constant (F := Ideal) S32x64x128 .f32 0x00000000#32) (ix3 g t e)
      = ∑ s : Fin 64, L (ix3 g t s) * R (ix3 g s e) := by
  simp only [matmul]
  rw [Ideal.matmul_constant_zero_apply, ← Equiv.sum_comp (contrEquiv1 dot_S32x64x64_S32x64x128_S32x64x128_2_1_1_2_0_0 64 rfl rfl).symm]
  refine Finset.sum_congr rfl fun s _ => ?_
  have hk := contrEquiv1_symm_val dot_S32x64x64_S32x64x128_S32x64x128_2_1_1_2_0_0 64 rfl rfl s
  have el : dot_S32x64x64_S32x64x128_S32x64x128_2_1_1_2_0_0.lhsIdx (ix3 g t e) ((contrEquiv1 dot_S32x64x64_S32x64x128_S32x64x128_2_1_1_2_0_0 64 rfl rfl).symm s) = ix3 g t s :=
    funext fun a => Fin.ext (by
      match a with
      | ⟨0, _⟩ => exact mx_lhs_0 _ _
      | ⟨1, _⟩ => exact mx_lhs_1 _ _
      | ⟨2, _⟩ => exact (mx_lhs_2 _ _).trans hk)
  have er : dot_S32x64x64_S32x64x128_S32x64x128_2_1_1_2_0_0.rhsIdx (ix3 g t e) ((contrEquiv1 dot_S32x64x64_S32x64x128_S32x64x128_2_1_1_2_0_0 64 rfl rfl).symm s) = ix3 g s e :=
    funext fun a => Fin.ext (by
      match a with
      | ⟨0, _⟩ => exact mx_rhs_0 _ _
      | ⟨1, _⟩ => exact (mx_rhs_1 _ _).trans hk
      | ⟨2, _⟩ => exact mx_rhs_2 _ _)
  rw [el, er]

/-- What one sub-chunk stores, at block `g`, row `t`, feature `e` (the two leading coordinates of a slab are its unit
    axes). -/
theorem chunk_apply (w : Vec Ideal S1x64x64 .f32) (a b cc : Vec Ideal S1x1x32x64x128 .f32) (u v : Fin 1) (g : Fin 32)
    (t : Fin 64) (e : Fin 128) :
    k0_pay3 (F := Ideal) w a b cc (ix5 u v g t e)
      = ∑ s : Fin 64, ((∑ d : Fin 128, a (ix5 (0 : Fin 1) (0 : Fin 1) g t d) * b (ix5 (0 : Fin 1) (0 : Fin 1) g s d))
          * w (ix3 (0 : Fin 1) t s)) * cc (ix5 (0 : Fin 1) (0 : Fin 1) g s e) := by
  unfold k0_pay3 k0_pay2
  refine (slab_add _ _ u v g t e).trans ?_
  refine (mix_apply _ _ g t e).trans ?_
  refine Finset.sum_congr rfl fun s _ => ?_
  simp only [truncf_apply, mulf_apply]
  rw [scores_apply, table_stretch, slab_drop]
  refine congrArg (fun z => (z * _) * _) (Finset.sum_congr rfl fun d _ => ?_)
  simp only [truncf_apply]
  rw [slab_drop, slab_drop]

/-- The other three sub-chunks store the same function of their loads: the printed payloads differ only in where the
    body was cut into parts. -/
theorem pay4_eq (w : Vec Ideal S1x64x64 .f32) (a b cc : Vec Ideal S1x1x32x64x128 .f32) :
    k0_pay4 (F := Ideal) (k0_pay2 w) a b cc = k0_pay3 w a b cc := rfl
theorem pay7_eq (w : Vec Ideal S1x64x64 .f32) (a b cc : Vec Ideal S1x1x32x64x128 .f32) :
    k0_pay7 (F := Ideal) (k0_pay2 w) (k0_pay5 a) (k0_pay6 b) cc = k0_pay3 w a b cc := rfl
theorem pay1_eq (w : Vec Ideal S1x64x64 .f32) (a b cc : Vec Ideal S1x1x32x64x128 .f32) :
    k0_pay1 (F := Ideal) (k0_pay8 (k0_pay2 w) a b cc) = k0_pay3 w a b cc := rfl

end Cert.KernelIdeal.Chunk

end
-- ==== Proof.Block.lean ====
/-
  What the kernel body leaves in the output's staging buffer, as ONE function of the four staged input blocks.

  The body fills the [1, 1, 128, 64, 128] output block in four slabs of 32 consecutive blocks each; slab `r` is the
  sub-chunk computation of the matching slabs of the query, key and value blocks, and of the whole table block.  A slab
  entry (g, t, e) of slab `r` sits at block 32·r + g, and a slab of a staged block read at (g, t, d) is the staged block
  at (32·r + g, t, d).  Hence every slab is the restriction of one function of the block index, and the four stores
  together leave exactly that function.
-/
import proofs.«108467_j70471823392988_2_alg».proof.Proof.Gen.KernelIdeal.Frame
import proofs.«108467_j70471823392988_2_alg».proof.Proof.Chunk
import Idealize.ShloMosaic.Lib.Tactic

noncomputable section

namespace Cert.KernelIdeal.Block

open Cert.KernelIdeal Cert.KernelIdeal.Gen Cert.KernelIdeal.Chunk
open Idealize.ShloMosaic Idealize.ShloMosaic.ValueIdx Idealize.ShloMosaic.Tactic Idealize.SL.Sem
open scoped BigOperators

/-- The body's result at block `n`, row `t`, feature `e` of the staged blocks `x0` (queries), `x1` (keys), `x2`
    (values) and `w` (the head's table). -/
def blockAt (x0 x1 x2 : Vec Ideal S1x1x128x64x128 .f32) (w : Vec Ideal S1x64x64 .f32) (n : Fin 128) (t : Fin 64)
    (e : Fin 128) : EReal :=
  ∑ s : Fin 64, ((∑ d : Fin 128, x0 (ix5 (0 : Fin 1) (0 : Fin 1) n t d) * x1 (ix5 (0 : Fin 1) (0 : Fin 1) n s d))
      * w (ix3 (0 : Fin 1) t s)) * x2 (ix5 (0 : Fin 1) (0 : Fin 1) n s e)

/-- The same as a function of the block's index. -/
def blockFn (x0 x1 x2 : Vec Ideal S1x1x128x64x128 .f32) (w : Vec Ideal S1x64x64 .f32) : S1x1x128x64x128.Idx → EReal :=
  fun y => blockAt x0 x1 x2 w (y 2) (y 3) (y 4)

theorem hz3 : (![0, 0, 0] : Fin 3 → Nat) = fun _ => 0 := funext fun a => by fin_cases a <;> rfl

/-- A slab of a staged block, loaded at block offset `o`, read at (g, t, d): the staged block at (o + g, t, d). -/
theorem slab_ld (X : Vec Ideal S1x1x128x64x128 .f32) (o : Nat) (inb : ∀ a, (![0, 0, o, 0, 0] : Fin 5 → Nat) a + (![1, 1, 32, 64, 128] : Fin 5 → Nat) a ≤ S1x1x128x64x128.size a)
    (g : Fin 32) (t : Fin 64) (d : Fin 128) (ho : o + g.val < 128) :
    View.ld X (Rect.unit (s := S1x1x128x64x128) ![0, 0, o, 0, 0] ![1, 1, 32, 64, 128] inb) (ix5 (0 : Fin 1) (0 : Fin 1) g t d)
      = X (ix5 (0 : Fin 1) (0 : Fin 1) (⟨o + g.val, ho⟩ : Fin 128) t d) := by
  show X _ = X _
  refine congrArg X (funext fun a => Fin.ext ?_)
  match a with
  | ⟨0, _⟩ => show 0 + 1 * 0 = 0; rfl
  | ⟨1, _⟩ => show 0 + 1 * 0 = 0; rfl
  | ⟨2, _⟩ => show o + 1 * g.val = o + g.val; omega
  | ⟨3, _⟩ => show 0 + 1 * t.val = t.val; omega
  | ⟨4, _⟩ => show 0 + 1 * d.val = d.val; omega

/-- ONE SLAB: the sub-chunk of the slabs loaded at block offset `o` is the restriction of `blockFn` to the slab's
    rectangle. -/
theorem slab_eq (x0 x1 x2 : Vec Ideal S1x1x128x64x128 .f32) (w : Vec Ideal S1x64x64 .f32) (o : Nat) (ho : o + 32 ≤ 128)
    (inb : ∀ a, (![0, 0, o, 0, 0] : Fin 5 → Nat) a + (![1, 1, 32, 64, 128] : Fin 5 → Nat) a ≤ S1x1x128x64x128.size a)
    (x : (Rect.unit (s := S1x1x128x64x128) ![0, 0, o, 0, 0] ![1, 1, 32, 64, 128] inb).shape.Idx) :
    k0_pay3 (F := Ideal) w
        (View.ld x0 (Rect.unit (s := S1x1x128x64x128) ![0, 0, o, 0, 0] ![1, 1, 32, 64, 128] inb))
        (View.ld x1 (Rect.unit (s := S1x1x128x64x128) ![0, 0, o, 0, 0] ![1, 1, 32, 64, 128] inb))
        (View.ld x2 (Rect.unit (s := S1x1x128x64x128) ![0, 0, o, 0, 0] ![1, 1, 32, 64, 128] inb)) x
      = blockFn x0 x1 x2 w ((Rect.unit (s := S1x1x128x64x128) ![0, 0, o, 0, 0] ![1, 1, 32, 64, 128] inb).emb x) := by
  obtain ⟨u, v, g, t, e, rfl⟩ : ∃ (u v : Fin 1) (g : Fin 32) (t : Fin 64) (e : Fin 128), x = ix5 u v g t e :=
    ⟨x 0, x 1, x 2, x 3, x 4, eq_ix5 x⟩
  have hg : o + g.val < 128 := by have := g.isLt; omega
  refine (chunk_apply w _ _ _ u v g t e).trans ?_
  have e2 : (((Rect.unit (s := S1x1x128x64x128) ![0, 0, o, 0, 0] ![1, 1, 32, 64, 128] inb).emb (ix5 u v g t e)) 2 : Fin 128)
      = ⟨o + g.val, hg⟩ := Fin.ext (by show o + 1 * g.val = o + g.val; omega)
  have e3 : (((Rect.unit (s := S1x1x128x64x128) ![0, 0, o, 0, 0] ![1, 1, 32, 64, 128] inb).emb (ix5 u v g t e)) 3 : Fin 64)
      = t := Fin.ext (by show 0 + 1 * t.val = t.val; omega)
  have e4 : (((Rect.unit (s := S1x1x128x64x128) ![0, 0, o, 0, 0] ![1, 1, 32, 64, 128] inb).emb (ix5 u v g t e)) 4 : Fin 128)
      = e := Fin.ext (by show 0 + 1 * e.val = e.val; omega)
  unfold blockFn blockAt
  rw [e2, e3, e4]
  refine Finset.sum_congr rfl fun s _ => ?_
  rw [slab_ld x2 o inb g s e hg]
  refine congrArg (fun z => (z * _) * _) (Finset.sum_congr rfl fun d _ => ?_)
  rw [slab_ld x0 o inb g t d hg, slab_ld x1 o inb g s d hg]
  rfl

/-- WHAT THE BODY LEAVES in the output's staging buffer: the four slabs' stores cover the block, and each is the
    restriction of `blockFn`, so the buffer reads `blockFn` of the staged input blocks. -/
theorem out_eq (c : Dev nD) (i : grid0.Coords) (arg3 : Memref sig .tc .vmem S1x1x128x64x128 .f32) (harg3 : arg3.IsWhole) (arg4 : Memref sig .tc .vmem S1x1x128x64x128 .f32) (harg4 : arg4.IsWhole) (arg5 : Memref sig .tc .vmem S1x1x128x64x128 .f32) (harg5 : arg5.IsWhole) (arg6 : Memref sig .tc .vmem S1x64x64 .f32) (harg6 : arg6.IsWhole) (arg7 : Memref sig .tc .vmem S1x1x128x64x128 .f32) (harg7 : arg7.IsWhole)
    (x0 : Vec Ideal S1x1x128x64x128 .f32) (x1 : Vec Ideal S1x1x128x64x128 .f32) (x2 : Vec Ideal S1x1x128x64x128 .f32) (x3 : Vec Ideal S1x64x64 .f32) :
    out0_A_4 (F := Ideal) c i arg3 harg3 arg4 harg4 arg5 harg5 arg6 harg6 arg7 harg7 x0 x1 x2 x3 = blockFn x0 x1 x2 x3 := by
  unfold out0_A_4
  rw [View.read_writes_eq_canon _ _ _ (cover0_A_4 c i arg3 harg3 arg4 harg4 arg5 harg5 arg6 harg6 arg7 harg7 x0 x1 x2 x3)]
  funext y
  refine View.canon_apply_of_pieces (blockFn x0 x1 x2 x3) _ ?_ y (cover0_A_4 c i arg3 harg3 arg4 harg4 arg5 harg5 arg6 harg6 arg7 harg7 x0 x1 x2 x3 y)
  unfold kernelRun0_A
  dsimp only
  sl_unfold_words
  simp only [View.readAt_eq_ld, harg3.read_unread, harg4.read_unread, harg5.read_unread, harg6.read_unread,
    View.ld_unit_zero (S := S1x64x64) hz3, pay1_eq, pay7_eq, pay4_eq]
  intro p hp
  simp only [List.mem_cons, List.mem_nil_iff, or_false] at hp
  rcases hp with rfl | rfl | rfl | rfl
  · exact slab_eq x0 x1 x2 x3 96 (by omega) _
  · exact slab_eq x0 x1 x2 x3 64 (by omega) _
  · exact slab_eq x0 x1 x2 x3 32 (by omega) _
  · exact slab_eq x0 x1 x2 x3 0 (by omega) _

end Cert.KernelIdeal.Block

end
-- ==== Proof.Spec.lean ====
/-
  The mathematics both programs compute, stated once over plain index types.

  The inputs are viewed as stacks [batch, head, block, row, feature] = [2, 16, 128, 64, 128]: a sequence of 8192 rows cut
  into 128 consecutive blocks of 64 rows.  Inside one block, row `t` attends to row `s` of the SAME block with weight
  `⟨q_t, k_s⟩ · D(head, t, s)`, where `D` is a per-head 64 × 64 table (the decay factors; zero above the diagonal), and
  the output row is the weighted sum of the value rows:

      out(b, h, n, t, e) = ∑ s, ((∑ d, Q(b,h,n,t,d) · K(b,h,n,s,d)) · D(h,t,s)) · V(b,h,n,s,e).

  Nothing here depends on what the table `D` holds: both programs build it by the same host operations from the same
  argument, so it is carried as a parameter.  The sums are over the extended reals, in which addition and multiplication
  are commutative and associative; no distributivity is used anywhere, so no finiteness is needed.
-/
import Idealize.ShloMosaic.PureOps.Ideal
import Idealize.ShloMosaic.Lib.ValueIdx

noncomputable section

namespace Cert.DiagAttn

open Idealize.ShloMosaic Idealize.ShloMosaic.ValueIdx
open scoped BigOperators

/-- [batch, head, block, row, feature]. -/
abbrev Stack : Shape := ⟨5, ![2, 16, 128, 64, 128]⟩
/-- [head, row, row]: the per-head table of weights inside a block. -/
abbrev Table : Shape := ⟨3, ![16, 64, 64]⟩

/-- The inner product of query row `t` and key row `s` of block `n`. -/
def score (Q K : Stack.Idx → EReal) (b : Fin 2) (h : Fin 16) (n : Fin 128) (t s : Fin 64) : EReal :=
  ∑ d : Fin 128, Q (ix5 b h n t d) * K (ix5 b h n s d)

/-- The block-diagonal weighted attention at coordinates. -/
def attend (Q K V : Stack.Idx → EReal) (D : Table.Idx → EReal) (b : Fin 2) (h : Fin 16) (n : Fin 128) (t : Fin 64)
    (e : Fin 128) : EReal :=
  ∑ s : Fin 64, (score Q K b h n t s * D (ix3 h t s)) * V (ix5 b h n s e)

/-- The same as one function of the stack index. -/
def attendAt (Q K V : Stack.Idx → EReal) (D : Table.Idx → EReal) : Stack.Idx → EReal :=
  fun y => attend Q K V D (y 0) (y 1) (y 2) (y 3) (y 4)

theorem attendAt_ix5 (Q K V : Stack.Idx → EReal) (D : Table.Idx → EReal) (b : Fin 2) (h : Fin 16) (n : Fin 128)
    (t : Fin 64) (e : Fin 128) : attendAt Q K V D (ix5 b h n t e) = attend Q K V D b h n t e := rfl

end Cert.DiagAttn

end
-- ==== Proof.Arr.lean ====
/-
  From blocks to the array: what the kernel's output array holds when the region ends.

  The grid has one point per (batch, head) pair; at the point of (b, h) the query, key, value and output windows all stage
  the [1, 1, 128, 64, 128] block (b, h, ·, ·, ·) of their arrays, and the table window stages the [1, 64, 64] block
  (h, ·, ·).  So the staged blocks are restrictions of the region's input arrays, the body's block function is the
  restriction to (b, h) of the specification's function of those arrays, and since the output blocks tile the array, the
  array ends holding that function.
-/
import proofs.«108467_j70471823392988_2_alg».proof.Proof.Gen.KernelIdeal.Frame
import proofs.«108467_j70471823392988_2_alg».proof.Proof.Block
import proofs.«108467_j70471823392988_2_alg».proof.Proof.Spec
import Idealize.ShloMosaic.Lib.Pipeline.Value

noncomputable section

namespace Cert.KernelIdeal.Arr

open Cert.KernelIdeal Cert.KernelIdeal.Gen Cert.KernelIdeal.Block Cert.DiagAttn
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- Blocks that are the (b, h) restrictions of `Q`, `K`, `Vv` and the `h` restriction of `D` give the (b, h)
    restriction of the specification. -/
theorem blockAt_eq (Q K Vv : Stack.Idx → EReal) (D : Table.Idx → EReal) (x0 x1 x2 : Vec Ideal S1x1x128x64x128 .f32)
    (w : Vec Ideal S1x64x64 .f32) (b : Fin 2) (h : Fin 16)
    (h0 : ∀ (n : Fin 128) (r : Fin 64) (d : Fin 128), x0 (ix5 (0 : Fin 1) (0 : Fin 1) n r d) = Q (ix5 b h n r d))
    (h1 : ∀ (n : Fin 128) (r : Fin 64) (d : Fin 128), x1 (ix5 (0 : Fin 1) (0 : Fin 1) n r d) = K (ix5 b h n r d))
    (h2 : ∀ (n : Fin 128) (r : Fin 64) (d : Fin 128), x2 (ix5 (0 : Fin 1) (0 : Fin 1) n r d) = Vv (ix5 b h n r d))
    (h3 : ∀ (r s : Fin 64), w (ix3 (0 : Fin 1) r s) = D (ix3 h r s)) (n : Fin 128) (r : Fin 64) (e : Fin 128) :
    blockAt x0 x1 x2 w n r e = attend Q K Vv D b h n r e := by
  unfold blockAt attend score
  simp only [h0, h1, h2, h3]

/-- The printed index maps over the grid: at every point the five windows sit at one (batch, head) pair. -/
theorem idx_facts : ∀ t : Fin cfg0.N, ∃ (b : Fin 2) (h : Fin 16),
    win0_0.index t = ![b.val, h.val, 0, 0, 0] ∧ win0_1.index t = ![b.val, h.val, 0, 0, 0]
    ∧ win0_2.index t = ![b.val, h.val, 0, 0, 0] ∧ win0_3.index t = ![h.val, 0, 0]
    ∧ win0_4.index t = ![b.val, h.val, 0, 0, 0] :=
  (by decide +kernel : ∀ t : Fin grid0.N, _)

/-- Every (batch, head) pair is some point's. -/
theorem idx_onto : ∀ (b : Fin 2) (h : Fin 16), ∃ t : Fin cfg0.N, win0_4.index t = ![b.val, h.val, 0, 0, 0] :=
  (by decide +kernel : ∀ (b : Fin 2) (h : Fin 16), ∃ t : Fin grid0.N, win0_4.index t = ![b.val, h.val, 0, 0, 0])

/-! A staged input block read at (n, r, d) is the region's input array at (b, h, n, r, d). -/
theorem read0 (c : Dev nD) (t : Fin cfg0.N) (b : Fin 2) (h : Fin 16) (hi : win0_0.index t = ![b.val, h.val, 0, 0, 0])
    (n : Fin 128) (r : Fin 64) (d : Fin 128) :
    iblk m c 0 t (ix5 (0 : Fin 1) (0 : Fin 1) n r d) = V m c main_v21 (ix5 b h n r d) := by
  show V m c main_v21 (((cfg0.win 0).blk t).view.emb (ix5 (0 : Fin 1) (0 : Fin 1) n r d)) = _
  refine congrArg (V m c main_v21) (funext fun a => Fin.ext ?_)
  have q0 : win0_0.index t (0 : Fin 5) = b.val := congrFun hi 0
  have q1 : win0_0.index t (1 : Fin 5) = h.val := congrFun hi 1
  have q2 : win0_0.index t (2 : Fin 5) = 0 := congrFun hi 2
  have q3 : win0_0.index t (3 : Fin 5) = 0 := congrFun hi 3
  have q4 : win0_0.index t (4 : Fin 5) = 0 := congrFun hi 4
  match a with
  | ⟨0, _⟩ => show win0_0.index t (0 : Fin 5) * 1 + 1 * 0 = b.val; omega
  | ⟨1, _⟩ => show win0_0.index t (1 : Fin 5) * 1 + 1 * 0 = h.val; omega
  | ⟨2, _⟩ => show win0_0.index t (2 : Fin 5) * 128 + 1 * n.val = n.val; omega
  | ⟨3, _⟩ => show win0_0.index t (3 : Fin 5) * 64 + 1 * r.val = r.val; omega
  | ⟨4, _⟩ => show win0_0.index t (4 : Fin 5) * 128 + 1 * d.val = d.val; omega

theorem read1 (c : Dev nD) (t : Fin cfg0.N) (b : Fin 2) (h : Fin 16) (hi : win0_1.index t = ![b.val, h.val, 0, 0, 0])
    (n : Fin 128) (r : Fin 64) (d : Fin 128) :
    iblk m c 1 t (ix5 (0 : Fin 1) (0 : Fin 1) n r d) = V m c main_v22 (ix5 b h n r d) := by
  show V m c main_v22 (((cfg0.win 1).blk t).view.emb (ix5 (0 : Fin 1) (0 : Fin 1) n r d)) = _
  refine congrArg (V m c main_v22) (funext fun a => Fin.ext ?_)
  have q0 : win0_1.index t (0 : Fin 5) = b.val := congrFun hi 0
  have q1 : win0_1.index t (1 : Fin 5) = h.val := congrFun hi 1
  have q2 : win0_1.index t (2 : Fin 5) = 0 := congrFun hi 2
  have q3 : win0_1.index t (3 : Fin 5) = 0 := congrFun hi 3
  have q4 : win0_1.index t (4 : Fin 5) = 0 := congrFun hi 4
  match a with
  | ⟨0, _⟩ => show win0_1.index t (0 : Fin 5) * 1 + 1 * 0 = b.val; omega
  | ⟨1, _⟩ => show win0_1.index t (1 : Fin 5) * 1 + 1 * 0 = h.val; omega
  | ⟨2, _⟩ => show win0_1.index t (2 : Fin 5) * 128 + 1 * n.val = n.val; omega
  | ⟨3, _⟩ => show win0_1.index t (3 : Fin 5) * 64 + 1 * r.val = r.val; omega
  | ⟨4, _⟩ => show win0_1.index t (4 : Fin 5) * 128 + 1 * d.val = d.val; omega

theorem read2 (c : Dev nD) (t : Fin cfg0.N) (b : Fin 2) (h : Fin 16) (hi : win0_2.index t = ![b.val, h.val, 0, 0, 0])
    (n : Fin 128) (r : Fin 64) (d : Fin 128) :
    iblk m c 2 t (ix5 (0 : Fin 1) (0 : Fin 1) n r d) = V m c main_v23 (ix5 b h n r d) := by
  show V m c main_v23 (((cfg0.win 2).blk t).view.emb (ix5 (0 : Fin 1) (0 : Fin 1) n r d)) = _
  refine congrArg (V m c main_v23) (funext fun a => Fin.ext ?_)
  have q0 : win0_2.index t (0 : Fin 5) = b.val := congrFun hi 0
  have q1 : win0_2.index t (1 : Fin 5) = h.val := congrFun hi 1
  have q2 : win0_2.index t (2 : Fin 5) = 0 := congrFun hi 2
  have q3 : win0_2.index t (3 : Fin 5) = 0 := congrFun hi 3
  have q4 : win0_2.index t (4 : Fin 5) = 0 := congrFun hi 4
  match a with
  | ⟨0, _⟩ => show win0_2.index t (0 : Fin 5) * 1 + 1 * 0 = b.val; omega
  | ⟨1, _⟩ => show win0_2.index t (1 : Fin 5) * 1 + 1 * 0 = h.val; omega
  | ⟨2, _⟩ => show win0_2.index t (2 : Fin 5) * 128 + 1 * n.val = n.val; omega
  | ⟨3, _⟩ => show win0_2.index t (3 : Fin 5) * 64 + 1 * r.val = r.val; omega
  | ⟨4, _⟩ => show win0_2.index t (4 : Fin 5) * 128 + 1 * d.val = d.val; omega

theorem read3 (c : Dev nD) (t : Fin cfg0.N) (h : Fin 16) (hi : win0_3.index t = ![h.val, 0, 0]) (r s : Fin 64) :
    iblk m c 3 t (ix3 (0 : Fin 1) r s) = V m c main_v20 (ix3 h r s) := by
  show V m c main_v20 (((cfg0.win 3).blk t).view.emb (ix3 (0 : Fin 1) r s)) = _
  refine congrArg (V m c main_v20) (funext fun a => Fin.ext ?_)
  have q0 : win0_3.index t (0 : Fin 3) = h.val := congrFun hi 0
  have q1 : win0_3.index t (1 : Fin 3) = 0 := congrFun hi 1
  have q2 : win0_3.index t (2 : Fin 3) = 0 := congrFun hi 2
  match a with
  | ⟨0, _⟩ => show win0_3.index t (0 : Fin 3) * 1 + 1 * 0 = h.val; omega
  | ⟨1, _⟩ => show win0_3.index t (1 : Fin 3) * 64 + 1 * r.val = r.val; omega
  | ⟨2, _⟩ => show win0_3.index t (2 : Fin 3) * 64 + 1 * s.val = s.val; omega

/-- The array the output window's array ends holding: the specification's function of the region's input arrays. -/
def G (c : Dev nD) : Buf (Elt Ideal) ((c : Thread nD τ).loc main_v24) :=
  attendAt (V m c main_v21) (V m c main_v22) (V m c main_v23) (V m c main_v20)

/-- WHAT POINT `t` WRITES BACK is block `t` of `G`. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold outsAt0
  rw [out_eq]
  obtain ⟨b, h, i0, i1, i2, i3, i4⟩ := idx_facts t
  funext y
  obtain ⟨u, v, n, r, e, rfl⟩ : ∃ (u v : Fin 1) (n : Fin 128) (r : Fin 64) (e : Fin 128), y = ix5 u v n r e :=
    ⟨y 0, y 1, y 2, y 3, y 4, eq_ix5 y⟩
  show blockAt (iblk m c 0 t) (iblk m c 1 t) (iblk m c 2 t) (iblk m c 3 t) n r e
    = G m c (((cfg0.win 4).blk t).view.emb (ix5 u v n r e))
  have ey : ((cfg0.win 4).blk t).view.emb (ix5 u v n r e) = ix5 b h n r e := by
    funext a; apply Fin.ext
    have q0 : win0_4.index t (0 : Fin 5) = b.val := congrFun i4 0
    have q1 : win0_4.index t (1 : Fin 5) = h.val := congrFun i4 1
    have q2 : win0_4.index t (2 : Fin 5) = 0 := congrFun i4 2
    have q3 : win0_4.index t (3 : Fin 5) = 0 := congrFun i4 3
    have q4 : win0_4.index t (4 : Fin 5) = 0 := congrFun i4 4
    have hu := u.isLt; have hv := v.isLt
    match a with
    | ⟨0, _⟩ => show win0_4.index t (0 : Fin 5) * 1 + 1 * u.val = b.val; omega
    | ⟨1, _⟩ => show win0_4.index t (1 : Fin 5) * 1 + 1 * v.val = h.val; omega
    | ⟨2, _⟩ => show win0_4.index t (2 : Fin 5) * 128 + 1 * n.val = n.val; omega
    | ⟨3, _⟩ => show win0_4.index t (3 : Fin 5) * 64 + 1 * r.val = r.val; omega
    | ⟨4, _⟩ => show win0_4.index t (4 : Fin 5) * 128 + 1 * e.val = e.val; omega
  rw [ey]
  exact blockAt_eq (V m c main_v21) (V m c main_v22) (V m c main_v23) (V m c main_v20) (iblk m c 0 t) (iblk m c 1 t)
    (iblk m c 2 t) (iblk m c 3 t) b h (read0 m c t b h i0) (read1 m c t b h i1) (read2 m c t b h i2) (read3 m c t h i3) n r e

/-- An index of the output array is in point `t`'s block iff each coordinate is in the block's range on its axis. -/
theorem mem_blk (t : Fin cfg0.N) (i : S2x16x128x64x128.Idx) :
    i ∈ ((cfg0.win 4).blk t).view.set ↔ ∀ a : Fin 5, win0_4.index t a * S1x1x128x64x128.size a ≤ (i a).val
      ∧ (i a).val < win0_4.index t a * S1x1x128x64x128.size a + S1x1x128x64x128.size a := by
  show i ∈ ((View.whole main_v24).slice (win0_4.rect t)).set ↔ _
  rw [View.set_slice_whole, Rect.mem_set_unit]
  exact Iff.rfl

/-- The output blocks tile the array: index (b, h, ·, ·, ·) is in the block of the point of (b, h). -/
theorem cover (i : S2x16x128x64x128.Idx) :
    ∃ t : Fin cfg0.N, (cfg0.win 4).flush t = true ∧ i ∈ ((cfg0.win 4).blk t).view.set := by
  obtain ⟨t, ht⟩ := idx_onto (i 0) (i 1)
  have q0 : win0_4.index t (0 : Fin 5) = (i 0).val := congrFun ht 0
  have q1 : win0_4.index t (1 : Fin 5) = (i 1).val := congrFun ht 1
  have q2 : win0_4.index t (2 : Fin 5) = 0 := congrFun ht 2
  have q3 : win0_4.index t (3 : Fin 5) = 0 := congrFun ht 3
  have q4 : win0_4.index t (4 : Fin 5) = 0 := congrFun ht 4
  have h2 : (i 2).val < 128 := (i 2).isLt
  have h3 : (i 3).val < 64 := (i 3).isLt
  have h4 : (i 4).val < 128 := (i 4).isLt
  refine ⟨t, flush0_4 t, ?_⟩
  rw [mem_blk]
  intro a
  match a with
  | ⟨0, _⟩ => show win0_4.index t (0 : Fin 5) * 1 ≤ (i 0).val ∧ (i 0).val < win0_4.index t (0 : Fin 5) * 1 + 1; omega
  | ⟨1, _⟩ => show win0_4.index t (1 : Fin 5) * 1 ≤ (i 1).val ∧ (i 1).val < win0_4.index t (1 : Fin 5) * 1 + 1; omega
  | ⟨2, _⟩ => show win0_4.index t (2 : Fin 5) * 128 ≤ (i 2).val ∧ (i 2).val < win0_4.index t (2 : Fin 5) * 128 + 128; omega
  | ⟨3, _⟩ => show win0_4.index t (3 : Fin 5) * 64 ≤ (i 3).val ∧ (i 3).val < win0_4.index t (3 : Fin 5) * 64 + 64; omega
  | ⟨4, _⟩ => show win0_4.index t (4 : Fin 5) * 128 ≤ (i 4).val ∧ (i 4).val < win0_4.index t (4 : Fin 5) * 128 + 128; omega

/-- THE ARRAY after the region: the specification's function of the region's input arrays. -/
theorem final (c : Dev nD) : (dats m 0 c).arrAt 4 cfg0.N = G m c :=
  (dats m 0 c).arrAt_eq_of_cover 4 (G m c) (fun t _ => flushed_eq m c t) (cover)

end Cert.KernelIdeal.Arr

end
-- ==== Proof.KernelRun.lean ====
/-
  The kernel program's run, read: its result array as a function of its argument arrays.

  Before the region the host re-brackets each of the three big inputs [2, 16, 8192, 128] as a stack [2, 16, 128, 64, 128]
  (a row-major reshape: 8192 rows are 128 blocks of 64) and builds the per-head table from the fourth argument; after the
  region it re-brackets the output stack back.  With the output array read in the block-to-array module, the result is the
  specification's function of the re-bracketed arguments and the table, re-bracketed back.
-/
import proofs.«108467_j70471823392988_2_alg».proof.Proof.Gen.KernelIdeal.Frame
import proofs.«108467_j70471823392988_2_alg».proof.Proof.Arr
import Idealize.ShloMosaic.Lib.StableHlo.Run
import Idealize.ShloMosaic.Lib.Tactic

noncomputable section

namespace Cert.KernelIdeal.Run

open Cert.KernelIdeal Cert.KernelIdeal.Gen Cert.KernelIdeal.Arr Cert.DiagAttn
open Idealize.ShloMosaic Idealize.ShloMosaic.TcCoe Idealize.ShloMosaic.Tactic Idealize.SL.Sem Idealize.ShloMosaic.StableHlo
open Idealize.ShloMosaic.Pipeline (Dat)

/-- The per-head table as the host builds it from the fourth argument `x`: at (h, t, s) the exponential of
    `(-x h) · (t - s)` where `t ≥ s`, and of `-∞` elsewhere. (Its contents are never opened: the reference builds the
    same table by the same operations.) -/
def table {F : FTy → Type} [FloatOps F] (x : (⟨S16, .f32⟩ : BufTy).Contents (Elt F)) : (⟨S16x64x64, .f32⟩ : BufTy).Contents (Elt F) :=
  Host.exp (select (broadcastInDim S16x64x64 ![0, 1, 2] bcast_S1x64x64_S16x64x64_0_1_2 (broadcastInDim S1x64x64 ![1, 2] bcast_S64x64_S1x64x64_1_2 (cmpi .sge (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0)))))) (mulf (broadcastInDim S16x64x64 ![0, 1, 2] bcast_S16x1x1_S16x64x64_0_1_2 (Host.negf (broadcastInDim S16x1x1 ![0] bcast_S16_S16x1x1_0 x))) (broadcastInDim S16x64x64 ![0, 1, 2] bcast_S1x64x64_S16x64x64_0_1_2 (broadcastInDim S1x64x64 ![1, 2] bcast_S64x64_S1x64x64_1_2 (sitofp .f32 (subi (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0)))))))) (broadcastInDim S16x64x64 ![] bcast_S_S16x64x64 (id (constant S_ .f32 0xFF800000#32))))

variable (m : (ℓ : Loc nD τ sig) → Buf (Elt Ideal) ℓ) (ρ : Dev nD → PrngReg)

/-- The region finds the first input re-bracketed. -/
theorem V_q (c : Dev nD) : V m c main_v21
    = shapeCast S2x16x128x64x128 (m ((c : Thread nD τ).loc main_arg0)) shapeCasts_S2x16x8192x128_S2x16x128x64x128 := by
  dsimp only [V, V0]
  simp only [hostOps0, hostOps0_1, hostOps0_2, List.flatten_cons, List.flatten_nil, List.append_nil, List.cons_append,
    List.nil_append]
  after_results_simp <;> rfl

/-- The second. -/
theorem V_k (c : Dev nD) : V m c main_v22
    = shapeCast S2x16x128x64x128 (m ((c : Thread nD τ).loc main_arg1)) shapeCasts_S2x16x8192x128_S2x16x128x64x128 := by
  dsimp only [V, V0]
  simp only [hostOps0, hostOps0_1, hostOps0_2, List.flatten_cons, List.flatten_nil, List.append_nil, List.cons_append,
    List.nil_append]
  after_results_simp <;> rfl

/-- The third. -/
theorem V_v (c : Dev nD) : V m c main_v23
    = shapeCast S2x16x128x64x128 (m ((c : Thread nD τ).loc main_arg2)) shapeCasts_S2x16x8192x128_S2x16x128x64x128 := by
  dsimp only [V, V0]
  simp only [hostOps0, hostOps0_1, hostOps0_2, List.flatten_cons, List.flatten_nil, List.append_nil, List.cons_append,
    List.nil_append]
  after_results_simp <;> rfl

/-- And the table built from the fourth argument. -/
theorem V_table (c : Dev nD) : V m c main_v20 = table (m ((c : Thread nD τ).loc main_arg3)) := by
  dsimp only [V, V0]
  simp only [hostOps0, hostOps0_1, hostOps0_2, List.flatten_cons, List.flatten_nil, List.append_nil, List.cons_append,
    List.nil_append]
  after_results_simp <;> rfl

/-- The program's result as a function of its argument arrays. -/
def result (c : Dev nD) : Buf (Elt Ideal) ((c : Thread nD τ).loc main_v25) :=
  shapeCast S2x16x8192x128
    (attendAt
      (shapeCast S2x16x128x64x128 (m ((c : Thread nD τ).loc main_arg0)) shapeCasts_S2x16x8192x128_S2x16x128x64x128)
      (shapeCast S2x16x128x64x128 (m ((c : Thread nD τ).loc main_arg1)) shapeCasts_S2x16x8192x128_S2x16x128x64x128)
      (shapeCast S2x16x128x64x128 (m ((c : Thread nD τ).loc main_arg2)) shapeCasts_S2x16x8192x128_S2x16x128x64x128)
      (table (m ((c : Thread nD τ).loc main_arg3))))
    shapeCasts_S2x16x128x64x128_S2x16x8192x128

/-- The output array after the region, in the arguments. -/
theorem G_eq (c : Dev nD) : G m c = attendAt
      (shapeCast S2x16x128x64x128 (m ((c : Thread nD τ).loc main_arg0)) shapeCasts_S2x16x8192x128_S2x16x128x64x128)
      (shapeCast S2x16x128x64x128 (m ((c : Thread nD τ).loc main_arg1)) shapeCasts_S2x16x8192x128_S2x16x128x64x128)
      (shapeCast S2x16x128x64x128 (m ((c : Thread nD τ).loc main_arg2)) shapeCasts_S2x16x8192x128_S2x16x128x64x128)
      (table (m ((c : Thread nD τ).loc main_arg3))) := by
  unfold G
  rw [V_q, V_k, V_v, V_table]

/-- The one host line after the region re-brackets the output array. -/
theorem tail_eq (c : Dev nD) :
    Pipeline.afterTail₀ cfgs (dats m) 0 (V0 m) [hostOps1] c main_v25 = result m c := by
  unfold Pipeline.afterTail₀
  show StableHlo.after hostOps1 _ (Proc.devRef .tc main_v25) = _
  after_results
  have e := (Pipeline.withArrays_arr spec0 launch0.win.arr_inj c (V0 m c) (fun w => (dats m 0 c).arrAt w cfg0.N) 4).trans
    ((final m c).trans (G_eq m c))
  unfold result
  refine Eq.trans ?_ (congrArg (fun z => shapeCast S2x16x8192x128 z shapeCasts_S2x16x128x64x128_S2x16x8192x128) e)
  rfl

/-- THE RUN, READ: every weakly fair execution of the kernel program terminates with the result array at `result` and
    the four argument arrays unchanged. -/
theorem run : θ_run defs (onTc (τ := τ) (main (F := Ideal))) ⟨m, fun _ => 0, ρ⟩ fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v25 (Pipeline.mem_restRefs_of main_v25 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.RefBridge.lean ====
/-
  The reference program computes the block-diagonal weighted attention of the specification.

  Its two host contractions carry the batch, head and block axes along: the first, over the feature axis, gives the
  inner products of the rows of a block; the table is repeated over batch and block and multiplied in; the second, over
  the key-row axis, mixes the value rows.  Read at an index (the generated stage lemmas) this is, term for term, the sum
  the specification writes; the only thing to check is that the composed index maps name the coordinates they should.
-/
import proofs.«108467_j70471823392988_2_alg».proof.Proof.Gen.ReferenceIdeal.Read
import proofs.«108467_j70471823392988_2_alg».proof.Proof.Spec

noncomputable section

namespace Cert.ReferenceIdeal.Bridge

open Cert.ReferenceIdeal Cert.ReferenceIdeal.Gen Cert.ReferenceIdeal.Read Idealize.ShloMosaic Idealize.ShloMosaic.ValueIdx
open Cert.DiagAttn
open scoped BigOperators

/-- The last contraction's result is the specification's function of the three re-bracketed inputs and the table. -/
theorem stage_eq (x0 x1 x2 : (⟨S2x16x8192x128, .f32⟩ : BufTy).Contents (Elt Ideal))
    (x3 : (⟨S16, .f32⟩ : BufTy).Contents (Elt Ideal)) :
    val_main_v28 (F := Ideal) x0 x1 x2 x3
      = attendAt (val_main_v0 (F := Ideal) x0) (val_main_v1 (F := Ideal) x1) (val_main_v2 (F := Ideal) x2)
          (val_main_v23 (F := Ideal) x3) := by
  funext i
  obtain ⟨b, h, n, t, e, rfl⟩ : ∃ (b : Fin 2) (h : Fin 16) (n : Fin 128) (t : Fin 64) (e : Fin 128), i = ix5 b h n t e :=
    ⟨i 0, i 1, i 2, i 3, i 4, eq_ix5 i⟩
  rw [val_main_v28_apply, attendAt_ix5]
  unfold attend score
  refine Finset.sum_congr rfl fun s _ => ?_
  rw [val_main_v27_apply, val_main_v24_apply, val_main_v26_apply, val_main_v25_apply]
  have e1 : ∀ k : Fin 128, lidx_main_v24 (lidx_main_v28 (ix5 b h n t e) s) k = ix5 b h n t k := fun k =>
    funext fun a => by match a with | ⟨0, _⟩ => rfl | ⟨1, _⟩ => rfl | ⟨2, _⟩ => rfl | ⟨3, _⟩ => rfl | ⟨4, _⟩ => rfl
  have e2 : ∀ k : Fin 128, ridx_main_v24 (lidx_main_v28 (ix5 b h n t e) s) k = ix5 b h n s k := fun k =>
    funext fun a => by match a with | ⟨0, _⟩ => rfl | ⟨1, _⟩ => rfl | ⟨2, _⟩ => rfl | ⟨3, _⟩ => rfl | ⟨4, _⟩ => rfl
  have e3 : idx_main_v25 (idx_main_v26 (lidx_main_v28 (ix5 b h n t e) s)) = ix3 h t s :=
    funext fun a => by match a with | ⟨0, _⟩ => rfl | ⟨1, _⟩ => rfl | ⟨2, _⟩ => rfl
  have e4 : ridx_main_v28 (ix5 b h n t e) s = ix5 b h n s e :=
    funext fun a => by match a with | ⟨0, _⟩ => rfl | ⟨1, _⟩ => rfl | ⟨2, _⟩ => rfl | ⟨3, _⟩ => rfl | ⟨4, _⟩ => rfl
  simp only [e1, e2, e3, e4]
  rfl

/-- So the reference's result array is that function, re-bracketed back to [2, 16, 8192, 128]. -/
theorem result_eq (x0 x1 x2 : (⟨S2x16x8192x128, .f32⟩ : BufTy).Contents (Elt Ideal))
    (x3 : (⟨S16, .f32⟩ : BufTy).Contents (Elt Ideal)) :
    val_main_v29 (F := Ideal) x0 x1 x2 x3
      = shapeCast S2x16x8192x128
          (attendAt (val_main_v0 (F := Ideal) x0) (val_main_v1 (F := Ideal) x1) (val_main_v2 (F := Ideal) x2)
            (val_main_v23 (F := Ideal) x3)) shapeCasts_S2x16x128x64x128_S2x16x8192x128 := by
  unfold val_main_v29
  rw [stage_eq]

end Cert.ReferenceIdeal.Bridge

end
-- ==== Proof.lean ====
/-
  The certificate's five claims.

  Both programs compute block-diagonal weighted attention: the 8192 rows of each (batch, head) pair are cut into 128
  consecutive blocks of 64 rows, and inside a block row `t` of the output is

      ∑ s, ((∑ d, q(t,d) · k(s,d)) · D(head, t, s)) · v(s, ·),

  with `D` a per-head 64 × 64 table that both programs build from the fourth argument by the same host operations
  (Proof/Spec.lean states the function; the table's contents are never opened).  The reference does it with two batched host
  contractions over the whole stack (Proof/RefBridge.lean).  The kernel visits one (batch, head) pair per grid point, and
  there handles the 128 blocks in four slabs of 32, each by two batched matrix products into a zero accumulator with the
  table multiplied in between (Proof/Chunk.lean: one slab at an index; Proof/Block.lean: the four stores leave one function
  of the staged blocks; Proof/Arr.lean: the output blocks tile the array; Proof/KernelRun.lean: the host reshapes around
  the region).  Over the extended reals a change of float format is the identity and each matrix product is the plain sum
  of products, so the two results are the same sums of the same terms in the same grouping: no algebraic law beyond
  reading each operation at an index is used, and the finiteness precondition is never opened.  The kernel's idealization
  rewrote nothing, so `preserves` is `True`.  The frames of the two kernel programs are the generated frame
  certificates; the reference's is its generated run with the result dropped.
-/
import proofs.«108467_j70471823392988_2_alg».proof.Defs
import proofs.«108467_j70471823392988_2_alg».proof.Proof.Gen.Kernel
import proofs.«108467_j70471823392988_2_alg».proof.Proof.Gen.Kernel.Skeleton
import proofs.«108467_j70471823392988_2_alg».proof.Proof.Gen.Kernel.Launch
import proofs.«108467_j70471823392988_2_alg».proof.Proof.Gen.Kernel.Points
import proofs.«108467_j70471823392988_2_alg».proof.Proof.Gen.Kernel.Frame
import proofs.«108467_j70471823392988_2_alg».proof.Proof.Gen.KernelIdeal
import proofs.«108467_j70471823392988_2_alg».proof.Proof.Gen.KernelIdeal.Skeleton
import proofs.«108467_j70471823392988_2_alg».proof.Proof.Gen.KernelIdeal.Launch
import proofs.«108467_j70471823392988_2_alg».proof.Proof.Gen.KernelIdeal.Points
import proofs.«108467_j70471823392988_2_alg».proof.Proof.Gen.KernelIdeal.Frame
import proofs.«108467_j70471823392988_2_alg».proof.Proof.Gen.ReferenceIdeal
import proofs.«108467_j70471823392988_2_alg».proof.Proof.Gen.ReferenceIdeal.Run
import proofs.«108467_j70471823392988_2_alg».proof.Proof.Gen.ReferenceIdeal.Read
import proofs.«108467_j70471823392988_2_alg».proof.Proof.Gen.Pre_finite_inputs
import proofs.«108467_j70471823392988_2_alg».proof.Proof.KernelRun
import proofs.«108467_j70471823392988_2_alg».proof.Proof.RefBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs build the per-head table by the same operations on the fourth argument. -/
theorem table_eq (x : (⟨Cert.KernelIdeal.S16, .f32⟩ : BufTy).Contents (Elt Ideal)) :
    Cert.KernelIdeal.Run.table (F := Ideal) x = Cert.ReferenceIdeal.Read.val_main_v23 (F := Ideal) x := rfl

/-- Both programs end with the specification's function of the (agreeing) arguments. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.Bridge.result_eq, (hagree c).1, (hagree c).2.1,
    (hagree c).2.2.1, (hagree c).2.2.2]
  show _ = Cert.KernelIdeal.Run.result m c
  unfold Cert.KernelIdeal.Run.result
  rw [table_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
